-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x32x512 : Shape := ⟨4, ![64, 32, 32, 512]⟩
abbrev S512x16 : Shape := ⟨2, ![512, 16]⟩
abbrev S16 : Shape := ⟨1, ![16]⟩
abbrev S16x512 : Shape := ⟨2, ![16, 512]⟩
abbrev S512 : Shape := ⟨1, ![512]⟩
abbrev S_ : Shape := ⟨0, ![]⟩

class Facts : Prop where
  bcast_S_S64x32x32x512 : S_.BroadcastsInDim S64x32x32x512 (![] : Fin 0 → Fin S64x32x32x512.rank)
  reducesTo_S64x32x32x512_S_d0_1_2_3 : S64x32x32x512.ReducesTo [0, 1, 2, 3] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S16x512 1) : IVec S_ 1 :=
  let main_c_5 : IVec S_ 1 := constantI S_ 1 1#1
  let main_v17 : IVec S_ 1 := (fun x v => Host.reduce IntOp.andi x v reducesTo_S16x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S64x32x32x512 .f32) (main_arg1 : FVec F S512x16 .f32) (main_arg2 : FVec F S16 .f32) (main_arg3 : FVec F S16x512 .f32) (main_arg4 : FVec F S512 .f32) : IVec S_ 1 :=
  let main_v0 : FVec F S64x32x32x512 .f32 := Host.absf main_arg0
  let main_cst : FVec F S_ .f32 := constant S_ .f32 0x7F800000#32
  let main_v1 : FVec F S64x32x32x512 .f32 := broadcastInDim S64x32x32x512 ![] bcast_S_S64x32x32x512 main_cst
  let main_v2 : IVec S64x32x32x512 1 := cmpf .olt main_v0 main_v1
  let main_c : IVec S_ 1 := constantI S_ 1 1#1
  let main_v3 : IVec S_ 1 := (fun x v => Host.reduce IntOp.andi x v reducesTo_S64x32x32x512_S_d0_1_2_3 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x512 .f32 := Host.absf main_arg3
  let main_cst_4 : FVec F S_ .f32 := constant S_ .f32 0x7F800000#32
  let main_v15 : FVec F S16x512 .f32 := broadcastInDim S16x512 ![] bcast_S_S16x512 main_cst_4
  let main_v16 : IVec S16x512 1 := cmpf .olt main_v14 main_v15
  fn_part1 (F := F) main_arg4 main_v13 main_v16
-- ==== Kernel.lean ====
abbrev S64x32x32x512 : Shape := ⟨4, ![64, 32, 32, 512]⟩
abbrev S512x16 : Shape := ⟨2, ![512, 16]⟩
abbrev S16 : Shape := ⟨1, ![16]⟩
abbrev S16x512 : Shape := ⟨2, ![16, 512]⟩
abbrev S512 : Shape := ⟨1, ![512]⟩
abbrev S65536x512 : Shape := ⟨2, ![65536, 512]⟩
abbrev S1x16 : Shape := ⟨2, ![1, 16]⟩
abbrev S1x512 : Shape := ⟨2, ![1, 512]⟩
abbrev S2048x512 : Shape := ⟨2, ![2048, 512]⟩
abbrev S2048x16 : Shape := ⟨2, ![2048, 16]⟩

abbrev nBuf : Space → Nat
  | .hbm => 11
  | .vmem => 8
  | .smem => 0
  | _ => 0

abbrev bufTy : (tb : Table) → Fin (tcTables nBuf tb) → BufTy
  | .hbm, ⟨0, _⟩ => ⟨S64x32x32x512, .f32⟩
  | .hbm, ⟨1, _⟩ => ⟨S512x16, .f32⟩
  | .hbm, ⟨2, _⟩ => ⟨S16, .f32⟩
  | .hbm, ⟨3, _⟩ => ⟨S16x512, .f32⟩
  | .hbm, ⟨4, _⟩ => ⟨S512, .f32⟩
  | .hbm, ⟨5, _⟩ => ⟨S65536x512, .f32⟩
  | .hbm, ⟨6, _⟩ => ⟨S1x16, .f32⟩
  | .hbm, ⟨7, _⟩ => ⟨S1x512, .f32⟩
  | .hbm, ⟨8, _⟩ => ⟨S16x512, .bf16⟩
  | .hbm, ⟨9, _⟩ => ⟨S65536x512, .f32⟩
  | .hbm, ⟨10, _⟩ => ⟨S64x32x32x512, .f32⟩
  | .local _ .vmem, ⟨0, _⟩ => ⟨S2048x512, .f32⟩
  | .local _ .vmem, ⟨1, _⟩ => ⟨S2048x512, .f32⟩
  | .local _ .vmem, ⟨2, _⟩ => ⟨S512x16, .f32⟩
  | .local _ .vmem, ⟨3, _⟩ => ⟨S1x16, .f32⟩
  | .local _ .vmem, ⟨4, _⟩ => ⟨S16x512, .bf16⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | _, _ => ⟨S64x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64x32x32x512_S65536x512 : S64x32x32x512.ShapeCasts S65536x512
  shapeCasts_S16_S1x16 : S16.ShapeCasts S1x16
  shapeCasts_S512_S1x512 : S512.ShapeCasts S1x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x16_S512x16_0_0 : ∀ a, (![0, 0] : Fin 2 → Nat) a + S512x16.size a ≤ S512x16.size a
  h_S512x16 : 0 < S512x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  shapeCasts_S65536x512_S64x32x32x512 : S65536x512.ShapeCasts S64x32x32x512
  dot_S2048x512_S512x16_S2048x16_1_0_0_1_n_n_wf : DotDims.WF S2048x512 S512x16 S2048x16 [1] [0] [0] [1] [] []
  dot_S2048x16_S16x512_S2048x512_1_0_0_1_n_n_wf : DotDims.WF S2048x16 S16x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x512.size a ≤ S16x512.size a
  hwx0_3 : ∀ i : grid0.Coords, EltTy.bits .bf16 = 32 ∨ (Rect.block (s := S16x512) S16x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S65536x512.size a
  hwx0_5 : ∀ i : grid0.Coords, EltTy.bits .f32 = 32 ∨ (Rect.block (s := S65536x512) S2048x512.size (cc0_transform_5 i) (hinb0_5 i)).WholeWords (EltTy.packing .f32)

variable [Facts₀]

def dot_S2048x512_S512x16_S2048x16_1_0_0_1_n_n : DotDims S2048x512 S512x16 S2048x16 where
  lhsContracting := [1]
  rhsContracting := [0]
  lhsNonContracting := [0]
  rhsNonContracting := [1]
  lhsBatch := []
  rhsBatch := []
  wf := dot_S2048x512_S512x16_S2048x16_1_0_0_1_n_n_wf
def dot_S2048x16_S16x512_S2048x512_1_0_0_1_n_n : DotDims S2048x16 S16x512 S2048x512 where
  lhsContracting := [1]
  rhsContracting := [0]
  lhsNonContracting := [0]
  rhsNonContracting := [1]
  lhsBatch := []
  rhsBatch := []
  wf := dot_S2048x16_S16x512_S2048x512_1_0_0_1_n_n_wf

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2048x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x32x32x512 : Shape := ⟨4, ![64, 32, 32, 512]⟩
abbrev S512x16 : Shape := ⟨2, ![512, 16]⟩
abbrev S16 : Shape := ⟨1, ![16]⟩
abbrev S16x512 : Shape := ⟨2, ![16, 512]⟩
abbrev S512 : Shape := ⟨1, ![512]⟩
abbrev S64x1024x512 : Shape := ⟨3, ![64, 1024, 512]⟩
abbrev S64x1024x16 : Shape := ⟨3, ![64, 1024, 16]⟩
abbrev S1x1x16 : Shape := ⟨3, ![1, 1, 16]⟩
abbrev S_ : Shape := ⟨0, ![]⟩
abbrev S64x1024 : Shape := ⟨2, ![64, 1024]⟩
abbrev S64x1024x1 : Shape := ⟨3, ![64, 1024, 1]⟩
abbrev S64x32x32x16 : Shape := ⟨4, ![64, 32, 32, 16]⟩
abbrev S1x1x1x512 : Shape := ⟨4, ![1, 1, 1, 512]⟩

abbrev nBuf : Space → Nat
  | .hbm => 37
  | .vmem => 0
  | .smem => 0
  | _ => 0

abbrev bufTy : (tb : Table) → Fin (tcTables nBuf tb) → BufTy
  | .hbm, ⟨0, _⟩ => ⟨S64x32x32x512, .f32⟩
  | .hbm, ⟨1, _⟩ => ⟨S512x16, .f32⟩
  | .hbm, ⟨2, _⟩ => ⟨S16, .f32⟩
  | .hbm, ⟨3, _⟩ => ⟨S16x512, .f32⟩
  | .hbm, ⟨4, _⟩ => ⟨S512, .f32⟩
  | .hbm, ⟨5, _⟩ => ⟨S64x1024x512, .f32⟩
  | .hbm, ⟨6, _⟩ => ⟨S64x1024x16, .f32⟩
  | .hbm, ⟨7, _⟩ => ⟨S1x1x16, .f32⟩
  | .hbm, ⟨8, _⟩ => ⟨S64x1024x16, .f32⟩
  | .hbm, ⟨9, _⟩ => ⟨S64x1024x16, .f32⟩
  | .hbm, ⟨10, _⟩ => ⟨S64x1024x16, .f32⟩
  | .hbm, ⟨11, _⟩ => ⟨S_, .f32⟩
  | .hbm, ⟨12, _⟩ => ⟨S64x1024, .f32⟩
  | .hbm, ⟨13, _⟩ => ⟨S64x1024x1, .f32⟩
  | .hbm, ⟨14, _⟩ => ⟨S64x1024x1, .f32⟩
  | .hbm, ⟨15, _⟩ => ⟨S_, .f32⟩
  | .hbm, ⟨16, _⟩ => ⟨S64x1024x1, .f32⟩
  | .hbm, ⟨17, _⟩ => ⟨S64x1024x1, .f32⟩
  | .hbm, ⟨18, _⟩ => ⟨S64x1024x16, .f32⟩
  | .hbm, ⟨19, _⟩ => ⟨S64x1024x16, .f32⟩
  | .hbm, ⟨20, _⟩ => ⟨S_, .f32⟩
  | .hbm, ⟨21, _⟩ => ⟨S64x1024x16, .f32⟩
  | .hbm, ⟨22, _⟩ => ⟨S64x1024x16, .i1⟩
  | .hbm, ⟨23, _⟩ => ⟨S64x1024x16, .f32⟩
  | .hbm, ⟨24, _⟩ => ⟨S_, .f32⟩
  | .hbm, ⟨25, _⟩ => ⟨S64x1024x16, .f32⟩
  | .hbm, ⟨26, _⟩ => ⟨S64x1024x16, .f32⟩
  | .hbm, ⟨27, _⟩ => ⟨S_, .f32⟩
  | .hbm, ⟨28, _⟩ => ⟨S64x1024x16, .f32⟩
  | .hbm, ⟨29, _⟩ => ⟨S64x1024x16, .f32⟩
  | .hbm, ⟨30, _⟩ => ⟨S64x1024x16, .f32⟩
  | .hbm, ⟨31, _⟩ => ⟨S64x1024x16, .f32⟩
  | .hbm, ⟨32, _⟩ => ⟨S64x32x32x16, .f32⟩
  | .hbm, ⟨33, _⟩ => ⟨S64x32x32x512, .f32⟩
  | .hbm, ⟨34, _⟩ => ⟨S1x1x1x512, .f32⟩
  | .hbm, ⟨35, _⟩ => ⟨S64x32x32x512, .f32⟩
  | .hbm, ⟨36, _⟩ => ⟨S64x32x32x512, .f32⟩
  | _, _ => ⟨S64x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S64x32x32x512_S64x1024x512 : S64x32x32x512.ShapeCasts S64x1024x512
  bcast_S16_S1x1x16_2 : S16.BroadcastsInDim S1x1x16 (![2] : Fin 1 → Fin S1x1x16.rank)
  bcast_S1x1x16_S64x1024x16_0_1_2 : S1x1x16.BroadcastsInDim S64x1024x16 (![0, 1, 2] : Fin 3 → Fin S64x1024x16.rank)
  reducesTo_S64x1024x16_S64x1024_d2 : S64x1024x16.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x16_0_1_2 : S64x1024x1.BroadcastsInDim S64x1024x16 (![0, 1, 2] : Fin 3 → Fin S64x1024x16.rank)
  bcast_S_S64x1024x16 : S_.BroadcastsInDim S64x1024x16 (![] : Fin 0 → Fin S64x1024x16.rank)
  shapeCasts_S64x1024x16_S64x32x32x16 : S64x1024x16.ShapeCasts S64x32x32x16
  bcast_S512_S1x1x1x512_3 : S512.BroadcastsInDim S1x1x1x512 (![3] : Fin 1 → Fin S1x1x1x512.rank)
  bcast_S1x1x1x512_S64x32x32x512_0_1_2_3 : S1x1x1x512.BroadcastsInDim S64x32x32x512 (![0, 1, 2, 3] : Fin 4 → Fin S64x32x32x512.rank)
  dot_S64x1024x512_S512x16_S64x1024x16_2_0_01_1_n_n_wf : DotDims.WF S64x1024x512 S512x16 S64x1024x16 [2] [0] [0, 1] [1] [] []
  dot_S64x32x32x16_S16x512_S64x32x32x512_3_0_012_1_n_n_wf : DotDims.WF S64x32x32x16 S16x512 S64x32x32x512 [3] [0] [0, 1, 2] [1] [] []

variable [Facts₀]

def dot_S64x1024x512_S512x16_S64x1024x16_2_0_01_1_n_n : DotDims S64x1024x512 S512x16 S64x1024x16 where
  lhsContracting := [2]
  rhsContracting := [0]
  lhsNonContracting := [0, 1]
  rhsNonContracting := [1]
  lhsBatch := []
  rhsBatch := []
  wf := dot_S64x1024x512_S512x16_S64x1024x16_2_0_01_1_n_n_wf
def dot_S64x32x32x16_S16x512_S64x32x32x512_3_0_012_1_n_n : DotDims S64x32x32x16 S16x512 S64x32x32x512 where
  lhsContracting := [3]
  rhsContracting := [0]
  lhsNonContracting := [0, 1, 2]
  rhsNonContracting := [1]
  lhsBatch := []
  rhsBatch := []
  wf := dot_S64x32x32x16_S16x512_S64x32x32x512_3_0_012_1_n_n_wf

class Facts : Prop extends Facts₀ where

variable [Facts]
-- ==== Proof.LibRealSums.lean ====
/-
  General algebra of finite sums of real numbers read inside the extended reals.

  At the ideal instance a float is an extended real, and the ring laws that join a program which aggregates
  first and multiplies afterwards to one which multiplies first (distributivity, exchange of two finite sums,
  cancellation in a mean) fail at the two infinities. Every law here is therefore stated for entries that are
  coercions of real numbers: it is proved in the reals and the coercion is pushed through sums, products and
  differences.
-/
import Mathlib
import Idealize.ShloMosaic.PureOps.Ideal
import Idealize.ShloMosaic.PureOps.Ideal.Laws

noncomputable section

open scoped BigOperators
open Idealize.ShloMosaic

namespace LibRealSums

/-! ## 1. The coercion commutes with finite sums -/

/-- The coercion of the reals into the extended reals commutes with a finite sum:
    the coercion of `∑ i ∈ s, f i` is `∑ i ∈ s` of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, (f i : EReal) :=
  coe_sum Finset.univ f

/-! ## 3. Regrouping a sum over `m * n` indices into `m` tiles of `n` -/

/-- A sum over `Fin N` with `N = m * n` is the sum over the `m` tiles of the sums over the `n` positions of a
    tile, the index of position `r` of tile `t` being `t * n + r`. -/
theorem sum_tiles {M : Type*} [AddCommMonoid M] {m n N : ℕ} (h : m * n = N) (f : Fin N → M) :
    ∑ t : Fin m, ∑ r : Fin n,
        f ⟨t.val * n + r.val, by
          have := t.isLt; have := r.isLt
          calc t.val * n + r.val < t.val * n + n := by omega
            _ = (t.val + 1) * n := by ring
            _ ≤ m * n := Nat.mul_le_mul_right _ (by omega)
            _ = N := h⟩
      = ∑ i : Fin N, f i := by
  subst h
  rw [← (finProdFinEquiv (m := m) (n := n)).sum_comp f, Fintype.sum_prod_type]
  refine Finset.sum_congr rfl fun t _ => Finset.sum_congr rfl fun r _ => congrArg f (Fin.ext ?_)
  simp only [finProdFinEquiv, Equiv.coe_fn_mk]
  ring

/-- `100000 = 25 * 4000`: a sum over 100000 indices is the sum over 25 tiles of 4000. -/
theorem sum_tiles_25_4000 {M : Type*} [AddCommMonoid M] (f : Fin 100000 → M) :
    ∑ t : Fin 25, ∑ r : Fin 4000, f ⟨t.val * 4000 + r.val, by omega⟩ = ∑ i : Fin 100000, f i :=
  sum_tiles (m := 25) (n := 4000) (N := 100000) (by norm_num) f

/-- `100000 = 50 * 2000`: a sum over 100000 indices is the sum over 50 tiles of 2000. -/
theorem sum_tiles_50_2000 {M : Type*} [AddCommMonoid M] (f : Fin 100000 → M) :
    ∑ t : Fin 50, ∑ r : Fin 2000, f ⟨t.val * 2000 + r.val, by omega⟩ = ∑ i : Fin 100000, f i :=
  sum_tiles (m := 50) (n := 2000) (N := 100000) (by norm_num) f

/-! ## 5. Aggregate, then multiply by the weight = multiply by the weight, then aggregate -/

/-- In the reals: the weighted sum over `k` of an aggregate `∑ e ∈ S, nrm e * g e k + d * y k` is the aggregate
    of the weighted sums: distributivity and the exchange of the two finite sums. -/
theorem real_aggregate_mul {E K : Type*} [Fintype K] (S : Finset E) (nrm : E → ℝ) (g : E → K → ℝ) (d : ℝ)
    (y W : K → ℝ) :
    ∑ k, ((∑ e ∈ S, nrm e * g e k) + d * y k) * W k
      = (∑ e ∈ S, nrm e * ∑ k, g e k * W k) + d * ∑ k, y k * W k := by
  simp only [add_mul, Finset.sum_add_distrib, Finset.sum_mul, Finset.mul_sum, mul_assoc]
  rw [Finset.sum_comm]

/-- In the extended reals, for real entries: a row that is first aggregated over the edges `e ∈ S` landing on it
    (each scaled by `nrm e`), has `d` times its own entry added, and is then contracted with the weight `W`, equals
    the row whose edge features and own entry are contracted with `W` first and aggregated afterwards. The leading
    `0 +` on both sides is the zero the scatter-add starts from. -/
theorem aggregate_mul {E K : Type*} [Fintype K] (S : Finset E) (nrm : E → ℝ) (g : E → K → ℝ) (d : ℝ)
    (y W : K → ℝ) :
    ∑ k, (((0 : EReal) + ∑ e ∈ S, (nrm e : EReal) * (g e k : EReal)) + (d : EReal) * (y k : EReal)) * (W k : EReal)
      = ((0 : EReal) + ∑ e ∈ S, (nrm e : EReal) * ∑ k, (g e k : EReal) * (W k : EReal))
          + (d : EReal) * ∑ k, (y k : EReal) * (W k : EReal) := by
  simp only [zero_add, ← EReal.coe_mul, ← coe_sum, ← EReal.coe_add]
  rw [real_aggregate_mul]

/-- The same with the edges selected by a decidable predicate: the sums over `Finset.univ.filter p`. -/
theorem aggregate_mul_filter {E K : Type*} [Fintype E] [Fintype K] (p : E → Prop) [DecidablePred p]
    (nrm : E → ℝ) (g : E → K → ℝ) (d : ℝ) (y W : K → ℝ) :
    ∑ k, (((0 : EReal) + ∑ e ∈ Finset.univ.filter p, (nrm e : EReal) * (g e k : EReal))
            + (d : EReal) * (y k : EReal)) * (W k : EReal)
      = ((0 : EReal) + ∑ e ∈ Finset.univ.filter p, (nrm e : EReal) * ∑ k, (g e k : EReal) * (W k : EReal))
          + (d : EReal) * ∑ k, (y k : EReal) * (W k : EReal) :=
  aggregate_mul (Finset.univ.filter p) nrm g d y W

/-- The aggregate without the self term: contraction with the weight commutes with the scaled aggregation. -/
theorem aggregate_mul_noself {E K : Type*} [Fintype K] (S : Finset E) (nrm : E → ℝ) (g : E → K → ℝ)
    (W : K → ℝ) :
    ∑ k, ((0 : EReal) + ∑ e ∈ S, (nrm e : EReal) * (g e k : EReal)) * (W k : EReal)
      = (0 : EReal) + ∑ e ∈ S, (nrm e : EReal) * ∑ k, (g e k : EReal) * (W k : EReal) := by
  simp only [zero_add, ← EReal.coe_mul, ← coe_sum]
  congr 1
  simp only [Finset.sum_mul, Finset.mul_sum, mul_assoc]
  rw [Finset.sum_comm]

/-! ## 4. The variance: mean of the squares minus the squared mean = mean of the squared deviations -/

/-- The quotient of a real by a nonzero real, taken in the extended reals, is the coercion of the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- In the reals, over `n ≠ 0` entries with mean `m = (∑ a) / n`:
    `(∑ a²) / n - m² = (∑ (a - m)²) / n`, since `∑ (a - m)² = ∑ a² - 2 m ∑ a + n m²` and `∑ a = n m`. -/
theorem real_variance {ι : Type*} [Fintype ι] (a : ι → ℝ) {n : ℝ} (hcard : (Fintype.card ι : ℝ) = n)
    (hn : n ≠ 0) :
    (∑ i, a i * a i) / n - (∑ i, a i) / n * ((∑ i, a i) / n)
      = (∑ i, (a i - (∑ j, a j) / n) * (a i - (∑ j, a j) / n)) / n := by
  have key : ∀ m : ℝ, ∑ i, (a i - m) * (a i - m) = (∑ i, a i * a i) - 2 * m * (∑ i, a i) + n * (m * m) := by
    intro m
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hcard]
    ring
  rw [key]
  field_simp
  ring

/-- In the extended reals, for real entries `a i` over an index type of `n ≠ 0` elements, with the mean
    `μ = (∑ a) / n`: the mean of the squares minus the square of the mean is the mean of the squared deviations
    from the mean. (The two-pass and the one-pass formula of a batch variance.) -/
theorem variance {ι : Type*} [Fintype ι] (a : ι → ℝ) {n : ℝ} (hcard : (Fintype.card ι : ℝ) = n) (hn : n ≠ 0) :
    Ideal.div (∑ i, (a i : EReal) * (a i : EReal)) (n : EReal)
        - Ideal.div (∑ i, (a i : EReal)) (n : EReal) * Ideal.div (∑ i, (a i : EReal)) (n : EReal)
      = Ideal.div (∑ i, ((a i : EReal) - Ideal.div (∑ j, (a j : EReal)) (n : EReal))
                        * ((a i : EReal) - Ideal.div (∑ j, (a j : EReal)) (n : EReal))) (n : EReal) := by
  have hμ : Ideal.div (∑ j, (a j : EReal)) (n : EReal) = (((∑ j, a j) / n : ℝ) : EReal) := by
    rw [← coe_sum_univ, div_coe_coe _ hn]
  rw [hμ]
  simp only [← EReal.coe_mul, ← EReal.coe_sub, ← coe_sum_univ, div_coe_coe _ hn]
  rw [real_variance a hcard hn]

/-- The same with the mean named: for `μ` equal to `(∑ a) / n`. -/
theorem variance' {ι : Type*} [Fintype ι] (a : ι → ℝ) {n : ℝ} (hcard : (Fintype.card ι : ℝ) = n) (hn : n ≠ 0)
    (μ : EReal) (hμ : μ = Ideal.div (∑ i, (a i : EReal)) (n : EReal)) :
    Ideal.div (∑ i, (a i : EReal) * (a i : EReal)) (n : EReal) - μ * μ
      = Ideal.div (∑ i, ((a i : EReal) - μ) * ((a i : EReal) - μ)) (n : EReal) := by
  subst hμ
  exact variance a hcard hn

/-- The mean of real entries is real: `(∑ a) / n` in the extended reals is the coercion of the real mean. -/
theorem mean_eq_coe {ι : Type*} [Fintype ι] (a : ι → ℝ) {n : ℝ} (hn : n ≠ 0) :
    Ideal.div (∑ i, (a i : EReal)) (n : EReal) = (((∑ i, a i) / n : ℝ) : EReal) := by
  rw [← coe_sum_univ, div_coe_coe _ hn]

/-- Both forms of the variance of real entries are the coercion of ONE real number `v ≥ 0` (so that adding an
    `ε > 0` gives a real `> 0`): `v` is the real mean of the squared deviations. -/
theorem variance_eq_coe_nonneg {ι : Type*} [Fintype ι] (a : ι → ℝ) {n : ℝ} (hcard : (Fintype.card ι : ℝ) = n)
    (hn : n ≠ 0) :
    ∃ v : ℝ, 0 ≤ v
      ∧ Ideal.div (∑ i, (a i : EReal) * (a i : EReal)) (n : EReal)
          - Ideal.div (∑ i, (a i : EReal)) (n : EReal) * Ideal.div (∑ i, (a i : EReal)) (n : EReal) = (v : EReal)
      ∧ Ideal.div (∑ i, ((a i : EReal) - Ideal.div (∑ j, (a j : EReal)) (n : EReal))
                        * ((a i : EReal) - Ideal.div (∑ j, (a j : EReal)) (n : EReal))) (n : EReal) = (v : EReal) := by
  have hnn : 0 ≤ n := hcard ▸ Nat.cast_nonneg _
  have h2 : Ideal.div (∑ i, ((a i : EReal) - Ideal.div (∑ j, (a j : EReal)) (n : EReal))
                        * ((a i : EReal) - Ideal.div (∑ j, (a j : EReal)) (n : EReal))) (n : EReal)
      = (((∑ i, (a i - (∑ j, a j) / n) * (a i - (∑ j, a j) / n)) / n : ℝ) : EReal) := by
    rw [mean_eq_coe a hn]
    simp only [← EReal.coe_mul, ← EReal.coe_sub, ← coe_sum_univ, div_coe_coe _ hn]
  refine ⟨(∑ i, (a i - (∑ j, a j) / n) * (a i - (∑ j, a j) / n)) / n,
    div_nonneg (Finset.sum_nonneg fun i _ => mul_self_nonneg _) hnn, ?_, h2⟩
  rw [variance a hcard hn, h2]

/-! ## 2. The reals are closed, inside the extended reals, under the operations of a program

  `IsReal x` says that `x` is the coercion of a real number. The arithmetic and lattice operations, finite sums,
  division by a nonzero real, the reciprocal square root of a positive real and the smooth unary functions all
  keep a value real. -/

/-- An extended real is *real* when it is the coercion of a real number, i.e. neither infinity. -/
def IsReal (x : EReal) : Prop := ∃ r : ℝ, x = (r : EReal)

namespace IsReal

/-- The coercion of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A real value is not `⊤`. -/
theorem ne_top {x : EReal} (h : IsReal x) : x ≠ ⊤ := by
  obtain ⟨r, rfl⟩ := h; exact EReal.coe_ne_top r

/-- A real value is not `⊥`. -/
theorem ne_bot {x : EReal} (h : IsReal x) : x ≠ ⊥ := by
  obtain ⟨r, rfl⟩ := h; exact EReal.coe_ne_bot r

/-- An extended real is real exactly when it is neither `⊥` nor `⊤`. -/
theorem iff_ne {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

/-- A real value is the coercion of its real part `x.toReal`. -/
theorem coe_toReal {x : EReal} (h : IsReal x) : ((x.toReal : ℝ) : EReal) = x := by
  obtain ⟨r, rfl⟩ := h; rfl

/-- The sum of two reals is real. -/
protected theorem add {x y : EReal} (hx : IsReal x) (hy : IsReal y) : IsReal (x + y) := by
  obtain ⟨a, rfl⟩ := hx; obtain ⟨b, rfl⟩ := hy; exact ⟨a + b, (EReal.coe_add a b).symm⟩

/-- The negation of a real is real. -/
protected theorem neg {x : EReal} (hx : IsReal x) : IsReal (-x) := by
  obtain ⟨a, rfl⟩ := hx; exact ⟨-a, (EReal.coe_neg a).symm⟩

/-- The difference of two reals is real. -/
protected theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
protected theorem mul {x y : EReal} (hx : IsReal x) (hy : IsReal y) : IsReal (x * y) := by
  obtain ⟨a, rfl⟩ := hx; obtain ⟨b, rfl⟩ := hy; exact ⟨a * b, (EReal.coe_mul a b).symm⟩

/-- The coercion commutes with the maximum (it is monotone). -/
theorem coe_max (a b : ℝ) : ((max a b : ℝ) : EReal) = max (a : EReal) (b : EReal) :=
  EReal.coe_strictMono.monotone.map_max

/-- The coercion commutes with the minimum (it is monotone). -/
theorem coe_min (a b : ℝ) : ((min a b : ℝ) : EReal) = min (a : EReal) (b : EReal) :=
  EReal.coe_strictMono.monotone.map_min

/-- The maximum of two reals is real. -/
protected theorem max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
protected theorem min {x y : EReal} (hx : IsReal x) (hy : IsReal y) : IsReal (min x y) := by
  obtain ⟨a, rfl⟩ := hx; obtain ⟨b, rfl⟩ := hy; exact ⟨Min.min a b, (coe_min a b).symm⟩

/-- A finite sum of reals is real. -/
protected theorem sum {ι : Type*} (s : Finset ι) (f : ι → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
protected theorem sum_univ {ι : Type*} [Fintype ι] (f : ι → EReal) (h : ∀ i, IsReal (f i)) :
    IsReal (∑ i, f i) :=
  IsReal.sum Finset.univ f fun i _ => h i

/-- The quotient of a real by a nonzero real is real: it is the coercion of the real quotient. -/
theorem div_coe {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The quotient of two reals with a nonzero divisor is real. -/
protected theorem div {x y : EReal} (hx : IsReal x) (hy : IsReal y) (h0 : y ≠ 0) : IsReal (Ideal.div x y) := by
  obtain ⟨b, rfl⟩ := hy
  exact hx.div_coe (fun hb => h0 (by rw [hb, EReal.coe_zero]))

/-- The reciprocal square root of a positive real `r` is the real `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.mpr (Real.sqrt_pos.mpr hr)⟩
  rw [Ideal.rsqrt_coe, if_neg (not_lt.mpr hr.le), if_neg hr.ne']

/-- The reciprocal square root of a positive real is a positive real. -/
theorem rsqrt_pos {x : EReal} (hx : IsReal x) (h0 : 0 < x) :
    ∃ s : ℝ, 0 < s ∧ Ideal.rsqrt x = (s : EReal) := by
  obtain ⟨r, rfl⟩ := hx
  have hr : 0 < r := EReal.coe_pos.mp h0
  exact ⟨(Real.sqrt r)⁻¹, (rsqrt_coe_pos hr).2, (rsqrt_coe_pos hr).1⟩

/-- The reciprocal square root of a positive real is real. -/
protected theorem rsqrt {x : EReal} (hx : IsReal x) (h0 : 0 < x) : IsReal (Ideal.rsqrt x) := by
  obtain ⟨s, _, hs⟩ := rsqrt_pos hx h0
  exact ⟨s, hs⟩

/-- A real `≥ 0` plus a real `> 0` is a real `> 0` (a variance plus its `ε`). -/
theorem add_pos_of_nonneg_of_pos {v e : ℝ} (hv : 0 ≤ v) (he : 0 < e) :
    ∃ r : ℝ, 0 < r ∧ (v : EReal) + (e : EReal) = (r : EReal) :=
  ⟨v + e, by positivity, (EReal.coe_add v e).symm⟩

/-- The hyperbolic tangent of a real is real. -/
protected theorem tanh {x : EReal} (hx : IsReal x) : IsReal (Ideal.tanh x) := by
  obtain ⟨r, rfl⟩ := hx; exact ⟨Real.tanh r, Ideal.tanh_coe r⟩

/-- The exponential of a real is real (and positive). -/
protected theorem exp {x : EReal} (hx : IsReal x) : IsReal (Ideal.exp x) := by
  obtain ⟨r, rfl⟩ := hx; exact ⟨Real.exp r, Ideal.exp_coe r⟩

/-- The logistic function of a real is real. -/
protected theorem logistic {x : EReal} (hx : IsReal x) : IsReal (Ideal.logistic x) := by
  obtain ⟨r, rfl⟩ := hx; exact ⟨(1 + Real.exp (-r))⁻¹, Ideal.logistic_coe r⟩

end IsReal

end LibRealSums
-- ==== Proof.SignLaw.lean ====
/-
  The scalar law behind a sign quantiser that drops its normalisation.

  A row `z : Fin 16 → EReal` of projected values is quantised to the code `+1` where `z d ≥ 0` and `-1` where
  `z d < 0`. One program computes the code directly from `z d`. The other first divides the row by
  `max (√(∑ e, z e * z e)) ε` for a small positive constant `ε`, computes `s = 2 * [zn ≥ 0] - 1` of the quotient `zn`,
  and returns `zn + (s - zn)`. For a row of REAL entries the two agree:

  * the sum of squares is a real `≥ 0`, its square root a real `≥ 0`, so the divisor `max (√…) ε` is a real `≥ ε > 0`;
  * dividing by a positive real keeps an entry real and keeps its sign, so `[zn ≥ 0] = [z d ≥ 0]`;
  * `zn + (s - zn) = s` because `zn` is real (at an infinity the difference would not cancel).

  The float constants the two programs spell are evaluated here, once: `0`, `1`, `-1`, `2` exactly, and `ε` as some
  positive real (its exact value plays no part).
-/
import proofs.«166742_j970662609103_2_alg».proof.Proof.LibRealSums
import Idealize.ShloMosaic.PureOps.Ideal
import Idealize.ShloMosaic.PureOps.Ideal.Laws

noncomputable section

open scoped BigOperators
open Idealize.ShloMosaic LibRealSums

namespace Cert.SignQuant

/-! ## The constants -/

/-- The pattern of `1.0` denotes `1`. -/
theorem one_f32 : Ideal.ofBits .f32 0x3F800000#32 = 1 := by
  simp [Ideal.ofBits, Ideal.ieee, -EReal.coe_mul]; norm_num

/-- The pattern of `-1.0` denotes `-1`. -/
theorem negOne_f32 : Ideal.ofBits .f32 0xBF800000#32 = -1 := by
  simp [Ideal.ofBits, Ideal.ieee, -EReal.coe_mul]; norm_num

/-- The pattern of `2.0` denotes the real `2`. -/
theorem two_f32 : Ideal.ofBits .f32 0x40000000#32 = ((2 : ℝ) : EReal) := by
  simp [Ideal.ofBits, Ideal.ieee, -EReal.coe_mul]; norm_num

/-- The pattern of the clamp `ε` (the float nearest `1e-12`) denotes a positive real. -/
theorem eps_f32 : ∃ e : ℝ, 0 < e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-! ## The code -/

/-- The sign code of an extended real: `+1` at and above zero, `-1` below. -/
def code (z : EReal) : EReal := if 0 ≤ z then 1 else -1

/-- A comparison `z ≥ 0` selecting between the patterns of `1.0` and `-1.0` is the code of `z`, at every extended real. -/
theorem select_code (z : Ideal .f32) :
    Scalar.select (FloatOps.cmpf .oge z (Scalar.ofBits (F := Ideal) .f32 0x00000000#32))
        (Scalar.ofBits (F := Ideal) .f32 0x3F800000#32) (Scalar.ofBits (F := Ideal) .f32 0xBF800000#32)
      = code z := by
  have hs : ∀ b : BitVec 32, Scalar.ofBits (F := Ideal) .f32 b = Ideal.ofBits .f32 b := fun _ => rfl
  simp only [Scalar.select, Ideal.cmpf_def, hs, Ideal.cmp, Ideal.ofBits_zero_f32, one_f32, negOne_f32, code]
  by_cases h : (0 : EReal) ≤ z <;> simp [h]

/-- A real plus the difference of another real and itself is that other real (no such cancellation at an infinity). -/
theorem add_sub_cancel_real (q s : ℝ) : (q : EReal) + ((s : EReal) - (q : EReal)) = (s : EReal) := by
  rw [← EReal.coe_sub, ← EReal.coe_add]; congr 1; ring

/-- Twice a natural number minus one, computed in the extended reals, is the real `2 * b - 1`. -/
theorem two_mul_sub_one (b : ℕ) : ((2 : ℝ) : EReal) * ((b : ℝ) : EReal) - 1 = ((2 * (b : ℝ) - 1 : ℝ) : EReal) := by
  rw [← EReal.coe_one, ← EReal.coe_mul, ← EReal.coe_sub]

/-- The code the normalising program computes for entry `d` of a row `z`: the entry divided by the clamped norm of the
    row, then `zn + ((2 * [zn ≥ 0] - 1) - zn)`. -/
def normCode (z : Fin 16 → EReal) (d : Fin 16) : EReal :=
  Ideal.div (z d) (max (Ideal.sqrt (Ideal.ofBits .f32 0x00000000#32 + ∑ e : Fin 16, z e * z e)) (Ideal.ofBits .f32 0x2B8CBCCC#32))
    + ((Ideal.ofBits .f32 0x40000000#32
          * (((Ideal.cmp .oge (Ideal.div (z d) (max (Ideal.sqrt (Ideal.ofBits .f32 0x00000000#32 + ∑ e : Fin 16, z e * z e))
                (Ideal.ofBits .f32 0x2B8CBCCC#32))) (Ideal.ofBits .f32 0x00000000#32)).toNat : ℝ) : EReal)
        - Ideal.ofBits .f32 0x3F800000#32)
      - Ideal.div (z d) (max (Ideal.sqrt (Ideal.ofBits .f32 0x00000000#32 + ∑ e : Fin 16, z e * z e)) (Ideal.ofBits .f32 0x2B8CBCCC#32)))

/-- For a row of real entries the normalising program's code is the sign code of the entry itself. -/
theorem normCode_eq (z : Fin 16 → EReal) (hz : ∀ d, IsReal (z d)) (d : Fin 16) : normCode z d = code (z d) := by
  choose r hr using hz
  obtain rfl : z = fun e => (r e : EReal) := funext hr
  obtain ⟨ε, hε, hεb⟩ := eps_f32
  -- the sum of squares is a real ≥ 0
  have hS : Ideal.ofBits .f32 0x00000000#32 + ∑ e : Fin 16, (r e : EReal) * (r e : EReal)
      = ((∑ e : Fin 16, r e * r e : ℝ) : EReal) := by
    rw [Ideal.ofBits_zero_f32, zero_add]; simp only [← EReal.coe_mul, ← coe_sum_univ]
  have hS0 : 0 ≤ ∑ e : Fin 16, r e * r e := Finset.sum_nonneg fun e _ => mul_self_nonneg _
  -- the divisor is a positive real
  have hD : max (Ideal.sqrt (Ideal.ofBits .f32 0x00000000#32 + ∑ e : Fin 16, (r e : EReal) * (r e : EReal)))
      (Ideal.ofBits .f32 0x2B8CBCCC#32) = ((max (Real.sqrt (∑ e : Fin 16, r e * r e)) ε : ℝ) : EReal) := by
    rw [hS, Ideal.sqrt_coe, if_neg (not_lt.mpr hS0), hεb, IsReal.coe_max]
  have hDpos : 0 < max (Real.sqrt (∑ e : Fin 16, r e * r e)) ε := lt_max_of_lt_right hε
  unfold normCode code
  rw [hD, div_coe_coe _ hDpos.ne', Ideal.ofBits_zero_f32, two_f32, one_f32]
  have hsign : (0 : EReal) ≤ ((r d / max (Real.sqrt (∑ e : Fin 16, r e * r e)) ε : ℝ) : EReal) ↔ (0 : EReal) ≤ (r d : EReal) := by
    rw [EReal.coe_nonneg, EReal.coe_nonneg]
    exact ⟨fun h => by have := mul_nonneg h hDpos.le; rwa [div_mul_cancel₀ _ hDpos.ne'] at this, fun h => div_nonneg h hDpos.le⟩
  rw [two_mul_sub_one, add_sub_cancel_real]
  by_cases h : (0 : EReal) ≤ (r d : EReal)
  · have hb : (Ideal.cmp .oge ((r d / max (Real.sqrt (∑ e : Fin 16, r e * r e)) ε : ℝ) : EReal) 0).toNat = 1 := by
      simp [Ideal.cmp, hsign.mpr h]
    rw [hb, if_pos h]; norm_num
  · have h' : ¬ (0 : EReal) ≤ ((r d / max (Real.sqrt (∑ e : Fin 16, r e * r e)) ε : ℝ) : EReal) := fun hh => h (hsign.mp hh)
    have hb : (Ideal.cmp .oge ((r d / max (Real.sqrt (∑ e : Fin 16, r e * r e)) ε : ℝ) : EReal) 0).toNat = 0 := by
      simp [Ideal.cmp, h']
    rw [hb, if_neg h]; norm_num

end Cert.SignQuant

end
-- ==== Proof.KernelPayload.lean ====
/-
  The kernel body's arithmetic read at one entry of the output block.

  The body holds a block of 2048 rows of the flattened input (`x0`, 2048 × 512), the projection weights (`x1`, 512 × 16) and
  bias (`x2`, 1 × 16), the reconstruction weights (`x3`, 16 × 512) and bias (`x4`, 1 × 512). It projects each row to 16 values
  `z d = ∑ k, x0 (p, k) * x1 (k, d) + x2 (0, d)`, replaces each by its sign code (`+1` where `z d ≥ 0`, else `-1`), and
  reconstructs `∑ d, code (z d) * x3 (d, q) + x4 (0, q)`. Both matrix products are exact sums over the extended reals, the change
  of float format of the code is the identity, and a cast of a shape to itself is the identity.
-/
import proofs.«166742_j970662609103_2_alg».proof.Proof.Gen.KernelIdeal.Skeleton
import proofs.«166742_j970662609103_2_alg».proof.Proof.SignLaw
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx Cert.KernelIdeal Cert.KernelIdeal.Gen Cert.SignQuant

namespace Cert.KernelIdeal.BodyValue

/-! ## The projection product -/

theorem proj_lhs_0 (i : S2048x16.Idx) (q : dot_S2048x512_S512x16_S2048x16_1_0_0_1_n_n.contr.Idx) : (dot_S2048x512_S512x16_S2048x16_1_0_0_1_n_n.lhsIdx i q 0).val = (i 0).val := by
  unfold DotDims.lhsIdx
  rw [dif_neg (show ¬(0 : Fin S2048x512.rank) ∈ dot_S2048x512_S512x16_S2048x16_1_0_0_1_n_n.lhsBatch by decide), dif_pos (show (0 : Fin S2048x512.rank) ∈ dot_S2048x512_S512x16_S2048x16_1_0_0_1_n_n.lhsNonContracting by decide)]
  rfl
theorem proj_rhs_1 (i : S2048x16.Idx) (q : dot_S2048x512_S512x16_S2048x16_1_0_0_1_n_n.contr.Idx) : (dot_S2048x512_S512x16_S2048x16_1_0_0_1_n_n.rhsIdx i q 1).val = (i 1).val := by
  unfold DotDims.rhsIdx
  rw [dif_neg (show ¬(1 : Fin S512x16.rank) ∈ dot_S2048x512_S512x16_S2048x16_1_0_0_1_n_n.rhsBatch by decide), dif_pos (show (1 : Fin S512x16.rank) ∈ dot_S2048x512_S512x16_S2048x16_1_0_0_1_n_n.rhsNonContracting by decide)]
  rfl

/-- The projection product into a zero accumulator, at row `p` and component `d`: the sum over the 512 input channels. -/
theorem projection_apply (x0 : FVec Ideal S2048x512 .f32) (x1 : FVec Ideal S512x16 .f32) (p : Fin 2048) (d : Fin 16) :
    matmul dot_S2048x512_S512x16_S2048x16_1_0_0_1_n_n (some .fp32) x0 x1 (constant (F := Ideal) S2048x16 .f32 0x00000000#32) (ix2 p d)
      = ∑ k : Fin 512, x0 (ix2 p k) * x1 (ix2 k d) := by
  simp only [matmul]
  rw [Ideal.matmul_constant_zero_apply, ← Equiv.sum_comp (contrEquiv1 dot_S2048x512_S512x16_S2048x16_1_0_0_1_n_n 512 rfl rfl).symm]
  refine Finset.sum_congr rfl fun k _ => ?_
  have hk := contrEquiv1_symm_val dot_S2048x512_S512x16_S2048x16_1_0_0_1_n_n 512 rfl rfl k
  have el : dot_S2048x512_S512x16_S2048x16_1_0_0_1_n_n.lhsIdx (ix2 p d) ((contrEquiv1 dot_S2048x512_S512x16_S2048x16_1_0_0_1_n_n 512 rfl rfl).symm k) = ix2 p k := funext fun a => Fin.ext (by
    match a with
    | ⟨0, _⟩ => exact proj_lhs_0 _ _
    | ⟨1, _⟩ => exact (dot_S2048x512_S512x16_S2048x16_1_0_0_1_n_n.lhsIdx_val_of_single rfl _ _).trans hk)
  have er : dot_S2048x512_S512x16_S2048x16_1_0_0_1_n_n.rhsIdx (ix2 p d) ((contrEquiv1 dot_S2048x512_S512x16_S2048x16_1_0_0_1_n_n 512 rfl rfl).symm k) = ix2 k d := funext fun a => Fin.ext (by
    match a with
    | ⟨0, _⟩ => exact (dot_S2048x512_S512x16_S2048x16_1_0_0_1_n_n.rhsIdx_val_of_single rfl _ _).trans hk
    | ⟨1, _⟩ => exact proj_rhs_1 _ _)
  rw [el, er]

/-! ## The reconstruction product -/

theorem recon_lhs_0 (i : S2048x512.Idx) (q : dot_S2048x16_S16x512_S2048x512_1_0_0_1_n_n.contr.Idx) : (dot_S2048x16_S16x512_S2048x512_1_0_0_1_n_n.lhsIdx i q 0).val = (i 0).val := by
  unfold DotDims.lhsIdx
  rw [dif_neg (show ¬(0 : Fin S2048x16.rank) ∈ dot_S2048x16_S16x512_S2048x512_1_0_0_1_n_n.lhsBatch by decide), dif_pos (show (0 : Fin S2048x16.rank) ∈ dot_S2048x16_S16x512_S2048x512_1_0_0_1_n_n.lhsNonContracting by decide)]
  rfl
theorem recon_rhs_1 (i : S2048x512.Idx) (q : dot_S2048x16_S16x512_S2048x512_1_0_0_1_n_n.contr.Idx) : (dot_S2048x16_S16x512_S2048x512_1_0_0_1_n_n.rhsIdx i q 1).val = (i 1).val := by
  unfold DotDims.rhsIdx
  rw [dif_neg (show ¬(1 : Fin S16x512.rank) ∈ dot_S2048x16_S16x512_S2048x512_1_0_0_1_n_n.rhsBatch by decide), dif_pos (show (1 : Fin S16x512.rank) ∈ dot_S2048x16_S16x512_S2048x512_1_0_0_1_n_n.rhsNonContracting by decide)]
  rfl

/-- The reconstruction product into a zero accumulator, at row `p` and channel `q`: the sum over the 16 code components. -/
theorem reconstruction_apply (y : FVec Ideal S2048x16 .bf16) (x3 : FVec Ideal S16x512 .bf16) (p : Fin 2048) (q : Fin 512) :
    matmul dot_S2048x16_S16x512_S2048x512_1_0_0_1_n_n none y x3 (constant (F := Ideal) S2048x512 .f32 0x00000000#32) (ix2 p q)
      = ∑ d : Fin 16, y (ix2 p d) * x3 (ix2 d q) := by
  simp only [matmul]
  rw [Ideal.matmul_constant_zero_apply, ← Equiv.sum_comp (contrEquiv1 dot_S2048x16_S16x512_S2048x512_1_0_0_1_n_n 16 rfl rfl).symm]
  refine Finset.sum_congr rfl fun k _ => ?_
  have hk := contrEquiv1_symm_val dot_S2048x16_S16x512_S2048x512_1_0_0_1_n_n 16 rfl rfl k
  have el : dot_S2048x16_S16x512_S2048x512_1_0_0_1_n_n.lhsIdx (ix2 p q) ((contrEquiv1 dot_S2048x16_S16x512_S2048x512_1_0_0_1_n_n 16 rfl rfl).symm k) = ix2 p k := funext fun a => Fin.ext (by
    match a with
    | ⟨0, _⟩ => exact recon_lhs_0 _ _
    | ⟨1, _⟩ => exact (dot_S2048x16_S16x512_S2048x512_1_0_0_1_n_n.lhsIdx_val_of_single rfl _ _).trans hk)
  have er : dot_S2048x16_S16x512_S2048x512_1_0_0_1_n_n.rhsIdx (ix2 p q) ((contrEquiv1 dot_S2048x16_S16x512_S2048x512_1_0_0_1_n_n 16 rfl rfl).symm k) = ix2 k q := funext fun a => Fin.ext (by
    match a with
    | ⟨0, _⟩ => exact (dot_S2048x16_S16x512_S2048x512_1_0_0_1_n_n.rhsIdx_val_of_single rfl _ _).trans hk
    | ⟨1, _⟩ => exact recon_rhs_1 _ _)
  rw [el, er]

/-! ## The whole body -/

/-- The value the body stores, at row `p` and channel `q` of the block. -/
theorem payload_apply (x0 : FVec Ideal S2048x512 .f32) (x1 : FVec Ideal S512x16 .f32) (x2 : FVec Ideal S1x16 .f32)
    (x3 : FVec Ideal S16x512 .bf16) (x4 : FVec Ideal S1x512 .f32) (p : Fin 2048) (q : Fin 512) :
    k0_pay1 (F := Ideal) x0 x1 x2 x3 x4 (ix2 p q)
      = (∑ d : Fin 16, code ((∑ k : Fin 512, x0 (ix2 p k) * x1 (ix2 k d)) + x2 (ix2 (0 : Fin 1) d)) * x3 (ix2 d q))
          + x4 (ix2 (0 : Fin 1) q) := by
  unfold k0_pay1
  simp only [shapeCast_self]
  refine (addf_apply _ _ _).trans ?_
  rw [reconstruction_apply, broadcastTo_1b_ab_apply]
  refine congrArg (· + x4 (ix2 (0 : Fin 1) q)) (Finset.sum_congr rfl fun d _ => ?_)
  refine congrArg (· * x3 (ix2 d q)) ?_
  refine (select_code _).trans (congrArg code ?_)
  refine (addf_apply _ _ _).trans ?_
  rw [projection_apply, broadcastTo_1b_ab_apply]

end Cert.KernelIdeal.BodyValue

end
-- ==== Proof.Spec.lean ====
/-
  The specification: what both programs compute, as one function of the five argument arrays.

  Pixel `(b, h, w)` of the input carries 512 channels. It is projected to 16 values
  `z d = ∑ k, x (b, h, w, k) * Wp (k, d) + bp d`, each value is replaced by its sign code (`+1` where `z d ≥ 0`, `-1`
  below), and the 16 codes are mapped back to 512 channels: `∑ d, code (z d) * Wr (d, c) + br c`.

  The same function is also stated on the flattened layout in which the 64 × 32 × 32 pixels are the 65536 rows of a
  matrix, with the two biases as one-row matrices; the layout module shows that the two layouts hold the same numbers (row
  `(b * 32 + h) * 32 + w` is pixel `(b, h, w)`).
-/
import proofs.«166742_j970662609103_2_alg».proof.Proof.SignLaw
import Idealize.ShloMosaic.Lib.ValueIdx
import Idealize.ShloMosaic.Lib.Pipeline.Value

noncomputable section

open scoped BigOperators
open Idealize.ShloMosaic Idealize.ShloMosaic.ValueIdx

namespace Cert.SignQuant

/-- The result at pixel `(b, h, w)`, channel `c`. -/
def pixelAt (x : (⟨4, ![64, 32, 32, 512]⟩ : Shape).Idx → EReal) (Wp : (⟨2, ![512, 16]⟩ : Shape).Idx → EReal)
    (bp : (⟨1, ![16]⟩ : Shape).Idx → EReal) (Wr : (⟨2, ![16, 512]⟩ : Shape).Idx → EReal)
    (br : (⟨1, ![512]⟩ : Shape).Idx → EReal) (b : Fin 64) (h : Fin 32) (w : Fin 32) (c : Fin 512) : EReal :=
  (∑ d : Fin 16, code ((∑ k : Fin 512, x (ix4 b h w k) * Wp (ix2 k d)) + bp (ix1 d)) * Wr (ix2 d c)) + br (ix1 c)

/-- The whole result array. -/
def result (x : (⟨4, ![64, 32, 32, 512]⟩ : Shape).Idx → EReal) (Wp : (⟨2, ![512, 16]⟩ : Shape).Idx → EReal)
    (bp : (⟨1, ![16]⟩ : Shape).Idx → EReal) (Wr : (⟨2, ![16, 512]⟩ : Shape).Idx → EReal)
    (br : (⟨1, ![512]⟩ : Shape).Idx → EReal) : (⟨4, ![64, 32, 32, 512]⟩ : Shape).Idx → EReal :=
  fun i => pixelAt x Wp bp Wr br (i 0) (i 1) (i 2) (i 3)

/-- The result at row `n` of the flattened input, channel `c`. -/
def rowAt (X : (⟨2, ![65536, 512]⟩ : Shape).Idx → EReal) (Wp : (⟨2, ![512, 16]⟩ : Shape).Idx → EReal)
    (Bp : (⟨2, ![1, 16]⟩ : Shape).Idx → EReal) (Wr : (⟨2, ![16, 512]⟩ : Shape).Idx → EReal)
    (Br : (⟨2, ![1, 512]⟩ : Shape).Idx → EReal) (n : Fin 65536) (c : Fin 512) : EReal :=
  (∑ d : Fin 16, code ((∑ k : Fin 512, X (ix2 n k) * Wp (ix2 k d)) + Bp (ix2 (0 : Fin 1) d)) * Wr (ix2 d c))
    + Br (ix2 (0 : Fin 1) c)

/-- The whole flattened result. -/
def rows (X : (⟨2, ![65536, 512]⟩ : Shape).Idx → EReal) (Wp : (⟨2, ![512, 16]⟩ : Shape).Idx → EReal)
    (Bp : (⟨2, ![1, 16]⟩ : Shape).Idx → EReal) (Wr : (⟨2, ![16, 512]⟩ : Shape).Idx → EReal)
    (Br : (⟨2, ![1, 512]⟩ : Shape).Idx → EReal) : (⟨2, ![65536, 512]⟩ : Shape).Idx → EReal :=
  fun j => rowAt X Wp Bp Wr Br (j 0) (j 1)

end Cert.SignQuant

end
-- ==== Proof.KernelValue.lean ====
/-
  The kernel's result array, read off its run.

  The grid has 32 points. Point `t` works on rows `2048 t … 2048 t + 2047` of the flattened input (all 512 channels of
  each) and holds the four small arrays whole; it writes back the same rows of the flattened output. So what point `t`
  writes is block `t` of the row-wise specification applied to the arrays the region was entered with, the 32 blocks
  cover the output array, and the array ends holding the specification.

  Around the region the program only relabels: before it, the input is flattened to 65536 rows, the two biases become
  one-row matrices and the reconstruction weights change float format (the identity on extended reals); after it, the
  65536 rows are read as 64 × 32 × 32 pixels again. The layout module turns the row-wise statement into the pixel-wise one.
-/
import proofs.«166742_j970662609103_2_alg».proof.Proof.Gen.KernelIdeal.Frame
import proofs.«166742_j970662609103_2_alg».proof.Proof.KernelPayload
import proofs.«166742_j970662609103_2_alg».proof.Proof.Spec
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BodyValue Cert.SignQuant

namespace Cert.KernelIdeal.ArrayValue

variable (m : (ℓ : Loc nD τ sig) → Buf (Elt Ideal) ℓ) (ρ : Dev nD → PrngReg)

theorem hz : (![0, 0] : Fin 2 → Nat) = fun _ => 0 := funext fun a => by fin_cases a <;> rfl

/-- The block indices over the grid: the input rows and the output rows move with the point, the small arrays stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The input blocks as parts of the arrays the region finds -/

/-- Row `p` of point `t`'s input block is row `2048 t + p` of the flattened input. -/
theorem rows_block (c : Dev nD) (t : Fin cfg0.N) (y : S2048x512.Idx) (k : S65536x512.Idx)
    (hk0 : (k 0).val = t.val * 2048 + (y 0).val) (hk1 : (k 1).val = (y 1).val) :
    (iblk m c 0 t : Vec Ideal S2048x512 .f32) y = (V m c main_v0 : S65536x512.Idx → EReal) k := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 2048 + 1 * (y 0).val = (k 0).val; rw [e0, hk0]; omega
  | ⟨1, _⟩ => show win0_0.index t 1 * 512 + 1 * (y 1).val = (k 1).val; rw [e1, hk1]; omega

/-- The projection weights are held whole. -/
theorem wp_block (c : Dev nD) (t : Fin cfg0.N) (y : S512x16.Idx) :
    (iblk m c 1 t : Vec Ideal S512x16 .f32) y = (V m c main_arg1 : S512x16.Idx → EReal) y := by
  obtain ⟨-, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t 0 * 512 + 1 * (y 0).val = (y 0).val; rw [e0]; omega
  | ⟨1, _⟩ => show win0_1.index t 1 * 16 + 1 * (y 1).val = (y 1).val; rw [e1]; omega

/-- The projection bias is held whole. -/
theorem bp_block (c : Dev nD) (t : Fin cfg0.N) (y : S1x16.Idx) :
    (iblk m c 2 t : Vec Ideal S1x16 .f32) y = (V m c main_v1 : S1x16.Idx → EReal) y := by
  obtain ⟨-, -, -, -, e0, e1, -⟩ := idx_facts t
  unfold iblk
  rw [View.read_apply]
  show V m c main_v1 _ = V m c main_v1 _
  refine congrArg (V m c main_v1) (funext fun a => Fin.ext ?_)
  match a with
  | ⟨0, _⟩ => show win0_2.index t 0 * 1 + 1 * (y 0).val = (y 0).val; rw [e0]; omega
  | ⟨1, _⟩ => show win0_2.index t 1 * 16 + 1 * (y 1).val = (y 1).val; rw [e1]; omega

/-- The reconstruction weights are held whole. -/
theorem wr_block (c : Dev nD) (t : Fin cfg0.N) (y : S16x512.Idx) :
    (iblk m c 3 t : Vec Ideal S16x512 .bf16) y = (V m c main_v3 : S16x512.Idx → EReal) y := by
  obtain ⟨-, -, -, -, -, -, e0, e1, -⟩ := idx_facts t
  unfold iblk
  rw [View.read_apply]
  show V m c main_v3 _ = V m c main_v3 _
  refine congrArg (V m c main_v3) (funext fun a => Fin.ext ?_)
  match a with
  | ⟨0, _⟩ => show win0_3.index t 0 * 16 + 1 * (y 0).val = (y 0).val; rw [e0]; omega
  | ⟨1, _⟩ => show win0_3.index t 1 * 512 + 1 * (y 1).val = (y 1).val; rw [e1]; omega

/-- The reconstruction bias is held whole. -/
theorem br_block (c : Dev nD) (t : Fin cfg0.N) (y : S1x512.Idx) :
    (iblk m c 4 t : Vec Ideal S1x512 .f32) y = (V m c main_v2 : S1x512.Idx → EReal) y := by
  obtain ⟨-, -, -, -, -, -, -, -, e0, e1, -⟩ := idx_facts t
  unfold iblk
  rw [View.read_apply]
  show V m c main_v2 _ = V m c main_v2 _
  refine congrArg (V m c main_v2) (funext fun a => Fin.ext ?_)
  match a with
  | ⟨0, _⟩ => show win0_4.index t 0 * 1 + 1 * (y 0).val = (y 0).val; rw [e0]; omega
  | ⟨1, _⟩ => show win0_4.index t 1 * 512 + 1 * (y 1).val = (y 1).val; rw [e1]; omega

/-! ## One block of the output -/

/-- The body's value on blocks that are the stated parts of five arrays, at an entry of the block: the row-wise
    specification of those arrays at the entry's place in the whole output. -/
theorem block_value (X : S65536x512.Idx → EReal) (Wp : S512x16.Idx → EReal) (Bp : S1x16.Idx → EReal)
    (Wr : S16x512.Idx → EReal) (Br : S1x512.Idx → EReal)
    (x0 : FVec Ideal S2048x512 .f32) (x1 : FVec Ideal S512x16 .f32) (x2 : FVec Ideal S1x16 .f32)
    (x3 : FVec Ideal S16x512 .bf16) (x4 : FVec Ideal S1x512 .f32) (T : ℕ) (hT : T < 32)
    (h0 : ∀ (y : S2048x512.Idx) (k : S65536x512.Idx), (k 0).val = T * 2048 + (y 0).val → (k 1).val = (y 1).val → x0 y = X k)
    (h1 : ∀ y, x1 y = Wp y) (h2 : ∀ y, x2 y = Bp y) (h3 : ∀ y, x3 y = Wr y) (h4 : ∀ y, x4 y = Br y)
    (y : S2048x512.Idx) (n : Fin 65536) (q : Fin 512) (hn : n.val = T * 2048 + (y 0).val) (hq : q.val = (y 1).val) :
    k0_pay1 (F := Ideal) x0 x1 x2 x3 x4 y = rowAt X Wp Bp Wr Br n q := by
  obtain ⟨p, q', rfl⟩ : ∃ (p : Fin 2048) (q' : Fin 512), y = ix2 p q' := ⟨y 0, y 1, eq_ix2 y⟩
  obtain rfl : q = q' := Fin.ext hq
  rw [payload_apply]
  unfold rowAt
  simp only [h1, h2, h3, h4]
  refine congrArg (· + Br (ix2 (0 : Fin 1) q)) (Finset.sum_congr rfl fun d _ => ?_)
  refine congrArg (fun z => code z * Wr (ix2 d q)) ?_
  refine congrArg (· + Bp (ix2 (0 : Fin 1) d)) (Finset.sum_congr rfl fun k _ => ?_)
  rw [h0 (ix2 p k) (ix2 n k) hn rfl]

/-- What point `t` writes back is block `t` of the row-wise specification of the arrays the region finds. -/
theorem flushed_eq (c : Dev nD) (t : Fin cfg0.N) :
    (dats m 0 c).flushed 5 t = ((cfg0.win 5).blk t).view.read (Elt Ideal)
      (rows (V m c main_v0) (V m c main_arg1) (V m c main_v1) (V m c main_v3) (V m c main_v2)) := by
  show (cfg0.win 5).cut (grid0.coords t) ((dats m 0 c).after 5 t) = _
  rw [after0_5]
  unfold out0_5
  rw [View.canon_unit_zero hz]
  simp only [View.ld_unit_zero (S := S2048x512) hz, View.ld_unit_zero (S := S512x16) hz, View.ld_unit_zero (S := S1x16) hz,
    View.ld_unit_zero (S := S16x512) hz, View.ld_unit_zero (S := S1x512) hz]
  obtain ⟨-, -, -, -, -, -, -, -, -, -, e0, e1⟩ := idx_facts t
  have hN : cfg0.N = 32 := N_0
  have ht : t.val < 32 := hN ▸ t.isLt
  funext j
  rw [View.read_apply]
  have hj0 : (j 0).val < 2048 := (j 0).isLt
  have hj1 : (j 1).val < 512 := (j 1).isLt
  have hemb : ((cfg0.win 5).blk t).view.emb j
      = ix2 (⟨t.val * 2048 + (j 0).val, by omega⟩ : Fin 65536) (⟨(j 1).val, hj1⟩ : Fin 512) :=
    funext fun a => Fin.ext (by
      match a with
      | ⟨0, _⟩ => show win0_5.index t 0 * 2048 + 1 * (j 0).val = t.val * 2048 + (j 0).val; rw [e0]; omega
      | ⟨1, _⟩ => show win0_5.index t 1 * 512 + 1 * (j 1).val = (j 1).val; rw [e1]; omega)
  rw [hemb]
  exact block_value (V m c main_v0) (V m c main_arg1) (V m c main_v1) (V m c main_v3) (V m c main_v2)
    (iblk m c 0 t) (iblk m c 1 t) (iblk m c 2 t) (iblk m c 3 t) (iblk m c 4 t) t.val ht
    (fun y k hk0 hk1 => rows_block m c t y k hk0 hk1) (wp_block m c t) (bp_block m c t) (wr_block m c t) (br_block m c t)
    j ⟨t.val * 2048 + (j 0).val, by omega⟩ ⟨(j 1).val, hj1⟩ rfl rfl

/-! ## The whole output array -/

/-- An index of the output array is in point `t`'s block iff each coordinate is in the block's range on its axis. -/
theorem mem_blk (t : Fin cfg0.N) (i : S65536x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v4).slice (win0_5.rect t)).set ↔ _
  rw [View.set_slice_whole, Rect.mem_set_unit]
  exact Iff.rfl

/-- Row `r` of the output lies in the block of point `r / 2048`: the 32 blocks cover the array. -/
theorem cover (i : S65536x512.Idx) : ∃ t : Fin cfg0.N, (cfg0.win 5).flush t = true ∧ i ∈ ((cfg0.win 5).blk t).view.set := by
  have hN : cfg0.N = 32 := N_0
  have hi0 : (i 0).val < 65536 := (i 0).isLt
  have hi1 : (i 1).val < 512 := (i 1).isLt
  obtain ⟨t, htv⟩ : ∃ t : Fin cfg0.N, t.val = (i 0).val / 2048 := ⟨⟨(i 0).val / 2048, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t 0 * 2048 ≤ (i 0).val ∧ (i 0).val < win0_5.index t 0 * 2048 + 2048
    rw [e0, htv]; omega
  | ⟨1, _⟩ =>
    show win0_5.index t 1 * 512 ≤ (i 1).val ∧ (i 1).val < win0_5.index t 1 * 512 + 512
    rw [e1]; omega

/-- The output array after the region: the row-wise specification of the arrays the region finds. -/
theorem final (c : Dev nD) : (dats m 0 c).arrAt 5 cfg0.N
    = rows (V m c main_v0) (V m c main_arg1) (V m c main_v1) (V m c main_v3) (V m c main_v2) :=
  (dats m 0 c).arrAt_eq_of_cover 5 _ (fun t _ => flushed_eq m c t) cover

end Cert.KernelIdeal.ArrayValue

end
-- ==== Proof.Layout.lean ====
/-
  The two layouts of the specification hold the same numbers.

  Flattening a 64 × 32 × 32 × 512 array to 65536 × 512 keeps the row-major order, so row `(b * 32 + h) * 32 + w` of the
  flattened array is pixel `(b, h, w)`; a vector of length `a` read as a 1 × `a` matrix has its entries in row 0. Hence the
  row-wise specification of the flattened input and the one-row biases, read as pixels again, is the pixel-wise specification.
-/
import proofs.«166742_j970662609103_2_alg».proof.Proof.Spec
import Idealize.ShloMosaic.Lib.ValueLayout
import Idealize.ShloMosaic.Lib.Pipeline.Value

noncomputable section

open scoped BigOperators
open Idealize.ShloMosaic Idealize.ShloMosaic.ValueIdx

namespace Cert.SignQuant

/-- Row `(b * 32 + h) * 32 + w` of the flattened array is pixel `(b, h, w)`. -/
theorem flatten_apply {α : Type} (x : (⟨4, ![64, 32, 32, 512]⟩ : Shape).Idx → α)
    (hc : (⟨4, ![64, 32, 32, 512]⟩ : Shape).ShapeCasts ⟨2, ![65536, 512]⟩)
    (b : Fin 64) (h w : Fin 32) (k : Fin 512) (n : Fin 65536) (hn : n.val = (b.val * 32 + h.val) * 32 + w.val) :
    shapeCast ⟨2, ![65536, 512]⟩ x hc (ix2 n k) = x (ix4 b h w k) :=
  shapeCast_apply x hc _ _ (by
    rw [Shape.rowMajor_val_four, Shape.rowMajor_val_two]
    show ((b.val * 32 + h.val) * 32 + w.val) * 512 + k.val = n.val * 512 + k.val
    rw [hn])

/-- Pixel `(b, h, w)` of the array read as pixels again is row `(b * 32 + h) * 32 + w`. -/
theorem unflatten_apply {α : Type} (Y : (⟨2, ![65536, 512]⟩ : Shape).Idx → α)
    (hc : (⟨2, ![65536, 512]⟩ : Shape).ShapeCasts ⟨4, ![64, 32, 32, 512]⟩)
    (b : Fin 64) (h w : Fin 32) (c : Fin 512) (n : Fin 65536) (hn : n.val = (b.val * 32 + h.val) * 32 + w.val) :
    shapeCast ⟨4, ![64, 32, 32, 512]⟩ Y hc (ix4 b h w c) = Y (ix2 n c) :=
  shapeCast_apply Y hc _ _ (by
    rw [Shape.rowMajor_val_two, Shape.rowMajor_val_four]
    show n.val * 512 + c.val = ((b.val * 32 + h.val) * 32 + w.val) * 512 + c.val
    rw [hn])

/-- The row-wise specification of the flattened input and the one-row biases, read as pixels, is the pixel-wise one. -/
theorem unflatten_rows (x : (⟨4, ![64, 32, 32, 512]⟩ : Shape).Idx → EReal) (Wp : (⟨2, ![512, 16]⟩ : Shape).Idx → EReal)
    (bp : (⟨1, ![16]⟩ : Shape).Idx → EReal) (Wr : (⟨2, ![16, 512]⟩ : Shape).Idx → EReal)
    (br : (⟨1, ![512]⟩ : Shape).Idx → EReal)
    (h1 : (⟨4, ![64, 32, 32, 512]⟩ : Shape).ShapeCasts ⟨2, ![65536, 512]⟩)
    (h2 : (⟨1, ![16]⟩ : Shape).ShapeCasts ⟨2, ![1, 16]⟩) (h3 : (⟨1, ![512]⟩ : Shape).ShapeCasts ⟨2, ![1, 512]⟩)
    (h4 : (⟨2, ![65536, 512]⟩ : Shape).ShapeCasts ⟨4, ![64, 32, 32, 512]⟩) :
    shapeCast ⟨4, ![64, 32, 32, 512]⟩
        (rows (shapeCast ⟨2, ![65536, 512]⟩ x h1) Wp (shapeCast ⟨2, ![1, 16]⟩ bp h2) Wr (shapeCast ⟨2, ![1, 512]⟩ br h3)) h4
      = result x Wp bp Wr br := by
  funext i
  obtain ⟨b, h, w, c, rfl⟩ : ∃ (b : Fin 64) (h w : Fin 32) (c : Fin 512), i = ix4 b h w c := ⟨i 0, i 1, i 2, i 3, eq_ix4 i⟩
  have hb : b.val < 64 := b.isLt
  have hh : h.val < 32 := h.isLt
  have hw : w.val < 32 := w.isLt
  rw [unflatten_apply _ h4 b h w c ⟨(b.val * 32 + h.val) * 32 + w.val, by omega⟩ rfl]
  show rowAt _ Wp _ Wr _ ⟨(b.val * 32 + h.val) * 32 + w.val, _⟩ c = pixelAt x Wp bp Wr br b h w c
  unfold rowAt pixelAt
  simp only [shapeCast_a_1a_apply]
  refine congrArg (· + br (ix1 c)) (Finset.sum_congr rfl fun d _ => ?_)
  refine congrArg (fun z => code z * Wr (ix2 d c)) ?_
  refine congrArg (· + bp (ix1 d)) (Finset.sum_congr rfl fun k _ => ?_)
  rw [flatten_apply x h1 b h w k _ rfl]

end Cert.SignQuant

end
-- ==== Proof.KernelRun.lean ====
/-
  The kernel program's run, read: the result buffer ends holding the specification of the argument arrays.

  The region finds the input flattened to 65536 rows, the two biases as one-row matrices and the reconstruction weights after
  a change of float format, which is the identity on extended reals; the projection weights it finds as launched. The region's
  output array ends at the row-wise specification of these, and the one operation after the region reads its 65536 rows as
  64 × 32 × 32 pixels, which is the pixel-wise specification of the arguments themselves.
-/
import proofs.«166742_j970662609103_2_alg».proof.Proof.KernelValue
import proofs.«166742_j970662609103_2_alg».proof.Proof.Layout

noncomputable section

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.ArrayValue Cert.SignQuant

namespace Cert.KernelIdeal.RunValue

variable (m : (ℓ : Loc nD τ sig) → Buf (Elt Ideal) ℓ) (ρ : Dev nD → PrngReg)

/-! ## The arrays the region finds -/

/-- The flattened input. -/
theorem entry_x (c : Dev nD) : (V m c main_v0 : S65536x512.Idx → EReal)
    = shapeCast S65536x512 (m ((c : Thread nD τ).loc main_arg0)) shapeCasts_S64x32x32x512_S65536x512 := by
  show StableHlo.after hostOps0 (fun b => m (c, b)) (Proc.devRef .tc main_v0) = _
  after_results; rfl

/-- The projection bias as a one-row matrix. -/
theorem entry_bp (c : Dev nD) : (V m c main_v1 : S1x16.Idx → EReal)
    = shapeCast S1x16 (m ((c : Thread nD τ).loc main_arg2)) shapeCasts_S16_S1x16 := by
  show StableHlo.after hostOps0 (fun b => m (c, b)) (Proc.devRef .tc main_v1) = _
  after_results; rfl

/-- The reconstruction bias as a one-row matrix. -/
theorem entry_br (c : Dev nD) : (V m c main_v2 : S1x512.Idx → EReal)
    = shapeCast S1x512 (m ((c : Thread nD τ).loc main_arg4)) shapeCasts_S512_S1x512 := by
  show StableHlo.after hostOps0 (fun b => m (c, b)) (Proc.devRef .tc main_v2) = _
  after_results; rfl

/-- The reconstruction weights: the change of float format is the identity. -/
theorem entry_wr (c : Dev nD) : (V m c main_v3 : S16x512.Idx → EReal)
    = (m ((c : Thread nD τ).loc main_arg3) : S16x512.Idx → EReal) := by
  show StableHlo.after hostOps0 (fun b => m (c, b)) (Proc.devRef .tc main_v3) = _
  after_results; rfl

/-! ## The result buffer -/

/-- The result buffer after the run is the pixel-wise specification of the argument arrays. -/
theorem result_eq (c : Dev nD) : Pipeline.afterTail₀ cfgs (dats m) 0 (V0 m) [hostOps1] c main_v5
    = result (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = rows (V m c main_v0) (V m c main_arg1) (V m c main_v1) (V m c main_v3) (V m c main_v2) :=
    (Pipeline.withArrays_arr spec0 launch0.win.arr_inj c _ _ 5).trans (final m c)
  rw [hw, entry_x, entry_bp, entry_br, entry_wr, V_main_arg1]
  exact unflatten_rows _ _ _ _ _ _ _ _ _

/-! ## The run -/

/-- Every weakly fair execution of the kernel program terminates with the result buffer at the specification of the argument
    arrays and the argument arrays unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.RefValue.lean ====
/-
  The reference program computes the specification, for finite projection inputs.

  Read one operation at a time, the reference at pixel `(b, h, w)`, channel `c` is
  `∑ d, q d * Wr (d, c) + br c`, where `q d` is the normalised code of the projected row `z` of the pixel: the row divided
  by the clamped norm, its sign as `2 * [· ≥ 0] - 1`, recombined as `zn + (s - zn)`. When `x`, `Wp` and `bp` hold real numbers
  the projected row is real, so the scalar law applies and `q d` is the sign code of `z d`.

  The two reshapes of the reference only rename indices: pixel `(b, h, w)` is position `h * 32 + w` of image `b`.
-/
import proofs.«166742_j970662609103_2_alg».proof.Proof.Gen.ReferenceIdeal.Read
import proofs.«166742_j970662609103_2_alg».proof.Proof.Spec

noncomputable section

open scoped BigOperators
open Idealize.ShloMosaic Idealize.ShloMosaic.ValueIdx Cert.ReferenceIdeal Cert.ReferenceIdeal.Read Cert.SignQuant LibRealSums

namespace Cert.ReferenceIdeal.RefValue

variable (x0 : (⟨S64x32x32x512, .f32⟩ : BufTy).Contents (Elt Ideal)) (x1 : (⟨S512x16, .f32⟩ : BufTy).Contents (Elt Ideal))
  (x2 : (⟨S16, .f32⟩ : BufTy).Contents (Elt Ideal))

/-- Position `h * 32 + w` of an image. -/
abbrev pos (h w : Fin 32) : Fin 1024 := ⟨h.val * 32 + w.val, by have := h.isLt; have := w.isLt; omega⟩

/-- The projected value of pixel `(b, h, w)`, component `d`: the sum over the 512 channels plus the bias. -/
theorem projected_eq (b : Fin 64) (h w : Fin 32) (d : Fin 16) :
    val_main_v4 (F := Ideal) x0 x1 x2 (ix3 b (pos h w) d)
      = (∑ k : Fin 512, x0 (ix4 b h w k) * x1 (ix2 k d)) + x2 (ix1 d) := by
  rw [val_main_v4_apply, val_main_v1_apply, val_main_v3_apply, val_main_v2_apply]
  have e2 : idx_main_v2 (idx_main_v3 (ix3 b (pos h w) d)) = ix1 d :=
    funext fun a => Fin.ext (by match a with | ⟨0, _⟩ => rfl)
  have er : ∀ k : Fin 512, ridx_main_v1 (ix3 b (pos h w) d) k = ix2 k d := fun k =>
    funext fun a => Fin.ext (by match a with | ⟨0, _⟩ => rfl | ⟨1, _⟩ => rfl)
  have el : ∀ k : Fin 512, val_main_v0 (F := Ideal) x0 (lidx_main_v1 (ix3 b (pos h w) d) k) = x0 (ix4 b h w k) := fun k => by
    rw [val_main_v0_apply]
    refine congrArg x0 (funext fun a => Fin.ext ?_)
    have hb : b.val < 64 := b.isLt
    have hh : h.val < 32 := h.isLt
    have hw : w.val < 32 := w.isLt
    have hk : k.val < 512 := k.isLt
    match a with
    | ⟨0, _⟩ => show ((b.val * 1024 + (h.val * 32 + w.val)) * 512 + k.val) / 524288 = b.val; omega
    | ⟨1, _⟩ => show ((b.val * 1024 + (h.val * 32 + w.val)) * 512 + k.val) / 16384 % 32 = h.val; omega
    | ⟨2, _⟩ => show ((b.val * 1024 + (h.val * 32 + w.val)) * 512 + k.val) / 512 % 32 = w.val; omega
    | ⟨3, _⟩ => show ((b.val * 1024 + (h.val * 32 + w.val)) * 512 + k.val) % 512 = k.val; omega
  rw [e2, Ideal.addf_def]
  refine congrArg (· + x2 (ix1 d)) (Finset.sum_congr rfl fun k _ => ?_)
  rw [el k, er k]

variable (h0 : ∀ j, IsReal (x0 j)) (h1 : ∀ j, IsReal (x1 j)) (h2 : ∀ j, IsReal (x2 j))

include h0 h1 h2 in
/-- With real inputs the projected values are real. -/
theorem projected_real (b : Fin 64) (h w : Fin 32) (d : Fin 16) :
    IsReal (val_main_v4 (F := Ideal) x0 x1 x2 (ix3 b (pos h w) d)) := by
  rw [projected_eq]
  exact (IsReal.sum_univ _ fun k => (h0 _).mul (h1 _)).add (h2 _)

/-- The reference's recombined sign at position `(b, h * 32 + w, d)` is the normalised code of the pixel's projected row. -/
theorem recombined_eq (b : Fin 64) (h w : Fin 32) (d : Fin 16) :
    val_main_v21 (F := Ideal) x0 x1 x2 (ix3 b (pos h w) d)
      = normCode (fun e => val_main_v4 (F := Ideal) x0 x1 x2 (ix3 b (pos h w) e)) d := by
  have e6 : ∀ k : Fin 16, idx_main_v6 (idx_main_v7 (idx_main_v11 (ix3 b (pos h w) d))) k = ix3 b (pos h w) k := fun k =>
    funext fun a => Fin.ext (by match a with | ⟨0, _⟩ => rfl | ⟨1, _⟩ => rfl | ⟨2, _⟩ => rfl)
  have huit : ∀ v : BitVec 1, FloatOps.uitofp (F := Ideal) .f32 v = ((v.toNat : ℝ) : EReal) := fun _ => rfl
  simp only [val_main_v21_apply, val_main_v20_apply, val_main_v19_apply, val_main_v17_apply, val_main_v15_apply,
    val_main_v14_apply, val_main_v12_apply, val_main_v11_apply, val_main_v10_apply, val_main_v8_apply, val_main_v7_apply,
    val_main_v6_apply, val_main_v5_apply, val_main_v16_apply, val_main_v18_apply, val_main_v13_apply, val_main_v9_apply,
    val_main_cst_apply, val_main_cst_0_apply, val_main_cst_1_apply, val_main_cst_2_apply, val_main_cst_3_apply, e6,
    Ideal.addf_def, Ideal.subf_def, Ideal.mulf_def, Ideal.hostDivf_def, Ideal.hostUnary_sqrt_def, Ideal.maximumf_def,
    Ideal.cmpf_def, Ideal.ofBits_def, huit]
  rfl

include h0 h1 h2 in
/-- So, for real inputs, it is the sign code of the pixel's projected value. -/
theorem recombined_code (b : Fin 64) (h w : Fin 32) (d : Fin 16) :
    val_main_v21 (F := Ideal) x0 x1 x2 (ix3 b (pos h w) d)
      = code ((∑ k : Fin 512, x0 (ix4 b h w k) * x1 (ix2 k d)) + x2 (ix1 d)) := by
  rw [recombined_eq, normCode_eq _ (fun e => projected_real x0 x1 x2 h0 h1 h2 b h w e) d, projected_eq]

include h0 h1 h2 in
/-- The reference's result array is the specification's. -/
theorem result_eq (x3 : (⟨S16x512, .f32⟩ : BufTy).Contents (Elt Ideal)) (x4 : (⟨S512, .f32⟩ : BufTy).Contents (Elt Ideal)) :
    val_main_v26 (F := Ideal) x0 x1 x2 x3 x4 = result x0 x1 x2 x3 x4 := by
  funext i
  obtain ⟨b, h, w, c, rfl⟩ : ∃ (b : Fin 64) (h w : Fin 32) (c : Fin 512), i = ix4 b h w c := ⟨i 0, i 1, i 2, i 3, eq_ix4 i⟩
  rw [val_main_v26_apply, val_main_v23_apply, val_main_v25_apply, val_main_v24_apply, Ideal.addf_def]
  have e4 : idx_main_v24 (idx_main_v25 (ix4 b h w c)) = ix1 c :=
    funext fun a => Fin.ext (by match a with | ⟨0, _⟩ => rfl)
  have er : ∀ d : Fin 16, ridx_main_v23 (ix4 b h w c) d = ix2 d c := fun d =>
    funext fun a => Fin.ext (by match a with | ⟨0, _⟩ => rfl | ⟨1, _⟩ => rfl)
  have el : ∀ d : Fin 16, val_main_v22 (F := Ideal) x0 x1 x2 (lidx_main_v23 (ix4 b h w c) d)
      = code ((∑ k : Fin 512, x0 (ix4 b h w k) * x1 (ix2 k d)) + x2 (ix1 d)) := fun d => by
    rw [val_main_v22_apply, ← recombined_code x0 x1 x2 h0 h1 h2 b h w d]
    refine congrArg (val_main_v21 (F := Ideal) x0 x1 x2) (funext fun a => Fin.ext ?_)
    have hb : b.val < 64 := b.isLt
    have hh : h.val < 32 := h.isLt
    have hw : w.val < 32 := w.isLt
    have hd : d.val < 16 := d.isLt
    match a with
    | ⟨0, _⟩ => show (((b.val * 32 + h.val) * 32 + w.val) * 16 + d.val) / 16384 = b.val; omega
    | ⟨1, _⟩ => show (((b.val * 32 + h.val) * 32 + w.val) * 16 + d.val) / 16 % 1024 = h.val * 32 + w.val; omega
    | ⟨2, _⟩ => show (((b.val * 32 + h.val) * 32 + w.val) * 16 + d.val) % 16 = d.val; omega
  rw [e4]
  show _ = pixelAt x0 x1 x2 x3 x4 b h w c
  unfold pixelAt
  refine congrArg (· + x4 (ix1 c)) (Finset.sum_congr rfl fun d _ => ?_)
  rw [el d, er d]

end Cert.ReferenceIdeal.RefValue

end
-- ==== Proof.Finite.lean ====
/-
  From the precondition to real entries.

  The precondition says of each float argument that every entry `x` satisfies `|x| < +∞`, the conjunction taken over all
  entries and all five arguments. On the extended reals `|x| = max x (-x)`, and `max x (-x) < ⊤` holds exactly when `x` is
  neither infinity, that is, when `x` is a real number. Only the first three arguments (the input, the projection weights
  and the projection bias) are needed downstream.
-/
import proofs.«166742_j970662609103_2_alg».proof.Pre_finite_inputs
import proofs.«166742_j970662609103_2_alg».proof.Proof.Gen.Pre_finite_inputs
import proofs.«166742_j970662609103_2_alg».proof.Proof.LibRealSums
import Idealize.ShloMosaic.Lib.ReduceAll
import Idealize.ShloMosaic.Lib.Affine
import Idealize.ShloMosaic.Lib.ValueIdx
import Idealize.ShloMosaic.PureOps.Ideal.Laws

noncomputable section

open Idealize.ShloMosaic LibRealSums

namespace Cert.Pre_finite_inputs.Finite

open Cert.Pre_finite_inputs

instance : Subsingleton S_.Idx := ⟨fun a b => funext fun d => d.elim0⟩

/-- The pattern of `+∞` denotes `⊤`. -/
theorem inf_f32 : Ideal.ofBits .f32 0x7F800000#32 = ⊤ := by simp [Ideal.ofBits, Ideal.ieee]

/-- An extended real whose absolute value compares below `+∞` is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  have h' : max x (-x) < ⊤ := by
    have := h
    simp only [Ideal.cmpf_def, Ideal.hostAbsf_def, Ideal.absf_def, Ideal.ofBits_def, inf_f32, Ideal.cmp] at this
    by_contra hn
    simp [hn] at this
  induction x using EReal.rec with
  | bot => simp at h'
  | coe r => exact ⟨r, rfl⟩
  | top => simp at h'

/-- Under the precondition every entry of the first three arguments is a real number. -/
theorem real_of_fn (a0 : FVec Ideal S64x32x32x512 .f32) (a1 : FVec Ideal S512x16 .f32) (a2 : FVec Ideal S16 .f32)
    (a3 : FVec Ideal S16x512 .f32) (a4 : FVec Ideal S512 .f32)
    (h : fn (F := Ideal) a0 a1 a2 a3 a4 = fun _ => 1#1) :
    (∀ j, IsReal (a0 j)) ∧ (∀ j, IsReal (a1 j)) ∧ (∀ j, IsReal (a2 j)) := by
  have h' := congrFun h ValueIdx.ix0
  dsimp only [fn, fn_part1, andi] at h'
  simp only [IntOp.andi_eq_one] at h'
  obtain ⟨⟨⟨⟨h0, h1⟩, h2⟩, -⟩, -⟩ := h'
  refine ⟨fun j => ?_, fun j => ?_, fun j => ?_⟩
  · exact isReal_of_abs_lt _ (Host.reduce_andi_all _ _ _ _ _ h0 j)
  · exact isReal_of_abs_lt _ (Host.reduce_andi_all _ _ _ _ _ h1 j)
  · exact isReal_of_abs_lt _ (Host.reduce_andi_all _ _ _ _ _ h2 j)

end Cert.Pre_finite_inputs.Finite

end
-- ==== Proof.lean ====
/-
  A sign quantiser with and without its normalisation.

  Both programs take a 64 × 32 × 32 × 512 input `x`, project each pixel's 512 channels to 16 values
  `z d = ∑ k, x k * Wp (k, d) + bp d`, quantise each value to the code `+1` (`z d ≥ 0`) or `-1` (`z d < 0`), and map the
  16 codes back to 512 channels, `∑ d, code d * Wr (d, c) + br c`.

  The reference first divides the row `z` by its Euclidean norm clamped below by a small positive constant, takes the sign
  of the quotient as `2 * [· ≥ 0] - 1`, and recombines it with the quotient as `zn + (s - zn)`. The kernel works on the
  pixels as 65536 rows in 32 blocks of 2048, skips the normalisation and selects the code directly from `z d ≥ 0`.

  On the extended reals the two agree when `x`, `Wp` and `bp` hold real numbers, which the precondition gives: then `z` is
  real, the clamped norm is a positive real, division by it keeps `z d` real and keeps its sign, and `zn + (s - zn) = s`.
  (At an infinite `z d` neither step would hold, so the precondition is used, for these three arguments.) The two matrix
  products are exact sums on both sides, and changes of float format are the identity.

  The modules: the scalar law and the constants (SignLaw), the specification in its pixel-wise and row-wise layouts (Spec,
  Layout), the reference read one operation at a time (RefValue), the kernel body at an index (KernelPayload), the kernel's
  blocks assembled into its output array (KernelValue), the operations around the region and the run (KernelRun), and real
  entries from the precondition (Finite). The kernel program's frames and the reference's run are the generated modules';
  the idealised kernel is the kernel's own text, so there is nothing to preserve.
-/
import proofs.«166742_j970662609103_2_alg».proof.Defs
import proofs.«166742_j970662609103_2_alg».proof.Proof.Gen.Kernel
import proofs.«166742_j970662609103_2_alg».proof.Proof.Gen.Kernel.Skeleton
import proofs.«166742_j970662609103_2_alg».proof.Proof.Gen.Kernel.Launch
import proofs.«166742_j970662609103_2_alg».proof.Proof.Gen.Kernel.Points
import proofs.«166742_j970662609103_2_alg».proof.Proof.Gen.Kernel.Frame
import proofs.«166742_j970662609103_2_alg».proof.Proof.Gen.KernelIdeal
import proofs.«166742_j970662609103_2_alg».proof.Proof.Gen.KernelIdeal.Skeleton
import proofs.«166742_j970662609103_2_alg».proof.Proof.Gen.KernelIdeal.Launch
import proofs.«166742_j970662609103_2_alg».proof.Proof.Gen.KernelIdeal.Points
import proofs.«166742_j970662609103_2_alg».proof.Proof.Gen.KernelIdeal.Frame
import proofs.«166742_j970662609103_2_alg».proof.Proof.Gen.ReferenceIdeal
import proofs.«166742_j970662609103_2_alg».proof.Proof.Gen.Pre_finite_inputs
import proofs.«166742_j970662609103_2_alg».proof.Proof.Gen.ReferenceIdeal.Run
import proofs.«166742_j970662609103_2_alg».proof.Proof.Gen.ReferenceIdeal.Read
import proofs.«166742_j970662609103_2_alg».proof.Proof.KernelRun
import proofs.«166742_j970662609103_2_alg».proof.Proof.RefValue
import proofs.«166742_j970662609103_2_alg».proof.Proof.Finite
import Idealize.ShloMosaic.Adequacy
import Idealize.ShloMosaic.Init

noncomputable section

namespace Cert.Proof

open Idealize.ShloMosaic Idealize.SL.Sem Cert.SignQuant

/-- The kernel program as printed terminates, without a fault, with its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealised kernel is the kernel's own text: no rewrite to account for. -/
theorem preserves : Cert.preserves_Kernel_KernelIdeal := trivial

/-- From memories agreeing on the arguments both programs end with the specification of those arguments in their result
    buffers: the kernel by its run, the reference by its run read one operation at a time, for the real entries the
    precondition gives. -/
theorem algebraic : Cert.algebraic_KernelIdeal_ReferenceIdeal := by
  intro m ρ m' ρ' hpre hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Pre_finite_inputs.Finite.real_of_fn _ _ _ _ _ (hpre c)
  rw [Cert.ReferenceIdeal.Read.val_main_v26_eq, (hagree c).1, (hagree c).2.1, (hagree c).2.2.1, (hagree c).2.2.2.1,
    (hagree c).2.2.2.2]
  exact Cert.ReferenceIdeal.RefValue.result_eq _ _ _ h0 h1 h2 _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
